-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S1600000 : Shape := ⟨1, ![1600000]⟩
abbrev S128x128 : Shape := ⟨2, ![128, 128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S1600000 : S_.BroadcastsInDim S1600000 (![] : Fin 0 → Fin S1600000.rank)
  reducesTo_S1600000_S_d0 : S1600000.ReducesTo [0] S_
  bcast_S_S128x128 : S_.BroadcastsInDim S128x128 (![] : Fin 0 → Fin S128x128.rank)
  reducesTo_S128x128_S_d0_1 : S128x128.ReducesTo [0, 1] S_

variable [Facts]

def fn_part1 {F : FTy → Type} [FloatOps F] (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  main_v18

def fn {F : FTy → Type} [FloatOps F] (main_arg0 : FVec F S100000x128 .f32) (main_arg1 : IVec S1600000 32) (main_arg2 : IVec S1600000 32) (main_arg3 : FVec F S1600000 .f32) (main_arg4 : FVec F S128x128 .f32) (main_arg5 : FVec F S128x128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S1600000 .f32 := Host.absf main_arg3
  let main_cst_0 : FVec F S_ .f32 := constant S_ .f32 0x7F800000#32
  let main_v5 : FVec F S1600000 .f32 := broadcastInDim S1600000 ![] bcast_S_S1600000 main_cst_0
  let main_v6 : IVec S1600000 1 := cmpf .olt main_v4 main_v5
  let main_c_1 : IVec S_ 1 := constantI S_ 1 1#1
  let main_v7 : IVec S_ 1 := (fun x v => Host.reduce IntOp.andi x v reducesTo_S1600000_S_d0 h_S_) main_v6 main_c_1
  let main_v8 : IVec S_ 1 := andi main_v3 main_v7
  let main_v9 : FVec F S128x128 .f32 := Host.absf main_arg4
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_v13 main_v16
-- ==== Kernel.lean ====
abbrev S100000x128 : Shape := ⟨2, ![100000, 128]⟩
abbrev S1600000 : Shape := ⟨1, ![1600000]⟩
abbrev S128x128 : Shape := ⟨2, ![128, 128]⟩
abbrev S5000x128 : Shape := ⟨2, ![5000, 128]⟩
abbrev S_ : Shape := ⟨0, ![]⟩
abbrev S1600000x1 : Shape := ⟨2, ![1600000, 1]⟩
abbrev S1600000x128 : Shape := ⟨2, ![1600000, 128]⟩

abbrev nBuf : Space → Nat
  | .hbm => 25
  | .vmem => 14
  | .smem => 0
  | _ => 0

abbrev bufTy : (tb : Table) → Fin (tcTables nBuf tb) → BufTy
  | .hbm, ⟨0, _⟩ => ⟨S100000x128, .f32⟩
  | .hbm, ⟨1, _⟩ => ⟨S1600000, .i32⟩
  | .hbm, ⟨2, _⟩ => ⟨S1600000, .i32⟩
  | .hbm, ⟨3, _⟩ => ⟨S1600000, .f32⟩
  | .hbm, ⟨4, _⟩ => ⟨S128x128, .f32⟩
  | .hbm, ⟨5, _⟩ => ⟨S128x128, .f32⟩
  | .hbm, ⟨6, _⟩ => ⟨S100000x128, .f32⟩
  | .hbm, ⟨7, _⟩ => ⟨S100000x128, .f32⟩
  | .hbm, ⟨8, _⟩ => ⟨S_, .i32⟩
  | .hbm, ⟨9, _⟩ => ⟨S1600000, .i32⟩
  | .hbm, ⟨10, _⟩ => ⟨S1600000, .i1⟩
  | .hbm, ⟨11, _⟩ => ⟨S_, .i32⟩
  | .hbm, ⟨12, _⟩ => ⟨S1600000, .i32⟩
  | .hbm, ⟨13, _⟩ => ⟨S1600000, .i32⟩
  | .hbm, ⟨14, _⟩ => ⟨S1600000, .i32⟩
  | .hbm, ⟨15, _⟩ => ⟨S1600000x1, .i32⟩
  | .hbm, ⟨16, _⟩ => ⟨S1600000x128, .f32⟩
  | .hbm, ⟨17, _⟩ => ⟨S1600000x1, .f32⟩
  | .hbm, ⟨18, _⟩ => ⟨S1600000x128, .f32⟩
  | .hbm, ⟨19, _⟩ => ⟨S1600000x128, .f32⟩
  | .hbm, ⟨20, _⟩ => ⟨S_, .f32⟩
  | .hbm, ⟨21, _⟩ => ⟨S100000x128, .f32⟩
  | .hbm, ⟨22, _⟩ => ⟨S1600000x1, .i32⟩
  | .hbm, ⟨23, _⟩ => ⟨S100000x128, .f32⟩
  | .hbm, ⟨24, _⟩ => ⟨S100000x128, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S128x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_c : Ref sig .tc := ⟨.hbm, 8, rfl⟩
abbrev main_v1 : Ref sig .tc := ⟨.hbm, 9, rfl⟩
abbrev main_v2 : Ref sig .tc := ⟨.hbm, 10, rfl⟩
abbrev main_c_0 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S5000x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  shapeCasts_S5000x128_S5000x128 : S5000x128.ShapeCasts S5000x128
  dot_S5000x128_S128x128_S5000x128_1_0_0_1_n_n_wf : DotDims.WF S5000x128 S128x128 S5000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S100000x128.size a
  hwx0_3 : ∀ i : grid0.Coords, EltTy.bits .f32 = 32 ∨ (Rect.block (s := S100000x128) S5000x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S5000x128.size a ≤ S100000x128.size a
  hwx0_4 : ∀ i : grid0.Coords, EltTy.bits .f32 = 32 ∨ (Rect.block (s := S100000x128) S5000x128.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S100000x128.size a
  hwx1_1 : ∀ i : grid1.Coords, EltTy.bits .f32 = 32 ∨ (Rect.block (s := S100000x128) S5000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S100000x128.size a
  hwx1_2 : ∀ i : grid1.Coords, EltTy.bits .f32 = 32 ∨ (Rect.block (s := S100000x128) S5000x128.size (cc1_transform_2 i) (hinb1_2 i)).WholeWords (EltTy.packing .f32)

variable [Facts₀]

def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg5) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0_0) S5000x128.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0_1) S5000x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v13) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0_1) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v14) S5000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S100000x128 : Shape := ⟨2, ![100000, 128]⟩
abbrev S1600000 : Shape := ⟨1, ![1600000]⟩
abbrev S128x128 : Shape := ⟨2, ![128, 128]⟩
abbrev S_ : Shape := ⟨0, ![]⟩
abbrev S1600000x1 : Shape := ⟨2, ![1600000, 1]⟩
abbrev S1600000x128 : Shape := ⟨2, ![1600000, 128]⟩

abbrev nBuf : Space → Nat
  | .hbm => 25
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S1600000, .i32⟩
  | .hbm, ⟨2, _⟩ => ⟨S1600000, .i32⟩
  | .hbm, ⟨3, _⟩ => ⟨S1600000, .f32⟩
  | .hbm, ⟨4, _⟩ => ⟨S128x128, .f32⟩
  | .hbm, ⟨5, _⟩ => ⟨S128x128, .f32⟩
  | .hbm, ⟨6, _⟩ => ⟨S100000x128, .f32⟩
  | .hbm, ⟨7, _⟩ => ⟨S_, .i32⟩
  | .hbm, ⟨8, _⟩ => ⟨S1600000, .i32⟩
  | .hbm, ⟨9, _⟩ => ⟨S1600000, .i1⟩
  | .hbm, ⟨10, _⟩ => ⟨S_, .i32⟩
  | .hbm, ⟨11, _⟩ => ⟨S1600000, .i32⟩
  | .hbm, ⟨12, _⟩ => ⟨S1600000, .i32⟩
  | .hbm, ⟨13, _⟩ => ⟨S1600000, .i32⟩
  | .hbm, ⟨14, _⟩ => ⟨S1600000x1, .i32⟩
  | .hbm, ⟨15, _⟩ => ⟨S1600000x128, .f32⟩
  | .hbm, ⟨16, _⟩ => ⟨S1600000x1, .f32⟩
  | .hbm, ⟨17, _⟩ => ⟨S1600000x128, .f32⟩
  | .hbm, ⟨18, _⟩ => ⟨S1600000x128, .f32⟩
  | .hbm, ⟨19, _⟩ => ⟨S_, .f32⟩
  | .hbm, ⟨20, _⟩ => ⟨S100000x128, .f32⟩
  | .hbm, ⟨21, _⟩ => ⟨S1600000x1, .i32⟩
  | .hbm, ⟨22, _⟩ => ⟨S100000x128, .f32⟩
  | .hbm, ⟨23, _⟩ => ⟨S100000x128, .f32⟩
  | .hbm, ⟨24, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_c_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  dot_S100000x128_S128x128_S100000x128_1_0_0_1_n_n_wf : DotDims.WF S100000x128 S128x128 S100000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1

variable [Facts₀]

def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf

class Facts : Prop extends Facts₀ where

variable [Facts]
-- ==== Proof.KernelRun.lean ====
/-
  The program's whole run, with its result named.

  The program is two grid regions with a stretch of host operations between them.  The buffer contents move from
  boundary to boundary: at launch; after the first region, whose two output arrays hold what its write-backs
  leave; after the host stretch; after the second region.  After every weakly fair execution the result buffer
  holds the last boundary's contents at that buffer, and each argument array is as launched.
-/
import proofs.«117966_j29918742184458_1_alg».proof.Proof.Gen.KernelIdeal.Frame

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without a fault; the result buffer then holds what the
    last boundary's contents give it, and each argument array is as launched. -/
theorem run : θ_run defs (onTc (τ := τ) (main (F := F))) ⟨m, fun _ => 0, ρ⟩ (fun r => ∀ c : Dev nD,
      r.2.mem ((c.tc : Thread nD τ).loc main_v14) = W3 m ρ c (Proc.devRef .tc main_v14)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c =>
      ⟨h c _ (mem_uc main_v14 (by decide)),
       (h c _ (mem_uc main_arg0 (by decide))).trans (W3_main_arg0 m ρ c),
       (h c _ (mem_uc main_arg1 (by decide))).trans (W3_main_arg1 m ρ c),
       (h c _ (mem_uc main_arg2 (by decide))).trans (W3_main_arg2 m ρ c),
       (h c _ (mem_uc main_arg3 (by decide))).trans (W3_main_arg3 m ρ c),
       (h c _ (mem_uc main_arg4 (by decide))).trans (W3_main_arg4 m ρ c),
       (h c _ (mem_uc main_arg5 (by decide))).trans (W3_main_arg5 m ρ c)⟩)

end Cert.KernelIdeal.Whole

end
-- ==== Proof.LibPlainDot.lean ====
/-
  A matrix product with the plain dimension numbers — an [M, K] operand against a [K, N] operand, contracting the
  left operand's second axis with the right operand's first, no batch axis — read at one entry of the result.
  Over the extended reals both the matrix unit's product into a zero accumulator and the host's `dot_general` are,
  at row `p` and column `q`, the sum over `k : Fin K` of `lhs (p, k) * rhs (k, q)`: the contraction index, a
  one-coordinate index of the contracted shape, is re-indexed by its coordinate. Generic in `M`, `K`, `N`.
-/
import Idealize.ShloMosaic.PureOps.Ideal.Laws
import Idealize.ShloMosaic.Lib.ValueIdx

noncomputable section

namespace LibPlainDot

open Idealize.ShloMosaic Idealize.ShloMosaic.ValueIdx

variable {M K N : Nat}

/-- The contraction index whose one coordinate is `k`. -/
abbrev kIdx (k : Fin K) : (DotDims.plain M K N).contr.Idx :=
  (contrEquiv1 (DotDims.plain M K N) K rfl rfl).symm k

/-- The left operand is read at row `p`, column `k`. -/
theorem lhsIdx_plain (p : Fin M) (q : Fin N) (k : Fin K) :
    (DotDims.plain M K N).lhsIdx (ix2 p q) (kIdx k) = ix2 p k := by
  funext a
  apply Fin.ext
  match a with
  | ⟨0, _⟩ => rfl
  | ⟨1, _⟩ =>
    exact ((DotDims.plain M K N).lhsIdx_val_of_single (cl := (1 : Fin 2)) rfl (ix2 p q) (kIdx k)).trans
      (contrEquiv1_symm_val (DotDims.plain M K N) K rfl rfl k)

/-- The right operand is read at row `k`, column `q`. -/
theorem rhsIdx_plain (p : Fin M) (q : Fin N) (k : Fin K) :
    (DotDims.plain M K N).rhsIdx (ix2 p q) (kIdx k) = ix2 k q := by
  funext a
  apply Fin.ext
  match a with
  | ⟨0, _⟩ =>
    exact ((DotDims.plain M K N).rhsIdx_val_of_single (cr := (0 : Fin 2)) rfl (ix2 p q) (kIdx k)).trans
      (contrEquiv1_symm_val (DotDims.plain M K N) K rfl rfl k)
  | ⟨1, _⟩ => rfl

/-- The sum over the contracted shape is the sum over `k : Fin K` of the row entry times the column entry. -/
theorem sum_plain (lhs : (⟨2, ![M, K]⟩ : Shape).Idx → EReal) (rhs : (⟨2, ![K, N]⟩ : Shape).Idx → EReal)
    (p : Fin M) (q : Fin N) :
    (∑ k : (DotDims.plain M K N).contr.Idx,
        lhs ((DotDims.plain M K N).lhsIdx (ix2 p q) k) * rhs ((DotDims.plain M K N).rhsIdx (ix2 p q) k))
      = ∑ k : Fin K, lhs (ix2 p k) * rhs (ix2 k q) := by
  rw [← Equiv.sum_comp (contrEquiv1 (DotDims.plain M K N) K rfl rfl).symm]
  refine Finset.sum_congr rfl fun k _ => ?_
  rw [lhsIdx_plain p q k, rhsIdx_plain p q k]

/-- The matrix unit's product into the zero accumulator, at row `p` and column `q`. -/
theorem matmul_zero_apply {φ₁ φ₂ : FTy} (prec : Option ContractPrecision)
    (lhs : FVec Ideal ⟨2, ![M, K]⟩ φ₁) (rhs : FVec Ideal ⟨2, ![K, N]⟩ φ₂) (p : Fin M) (q : Fin N) :
    FloatOps.matmul (DotDims.plain M K N) prec lhs rhs (constant ⟨2, ![M, N]⟩ .f32 0x00000000#32) (ix2 p q)
      = ∑ k : Fin K, lhs (ix2 p k) * rhs (ix2 k q) :=
  (Ideal.matmul_constant_zero_apply (DotDims.plain M K N) prec lhs rhs (ix2 p q)).trans (sum_plain lhs rhs p q)

/-- The host's `dot_general`, at row `p` and column `q`. -/
theorem dotGeneral_apply {φ₁ φ₂ : FTy} (prec : Option ContractPrecision) (sched : HostSchedule)
    (lhs : FVec Ideal ⟨2, ![M, K]⟩ φ₁) (rhs : FVec Ideal ⟨2, ![K, N]⟩ φ₂) (p : Fin M) (q : Fin N) :
    FloatOps.dotGeneral (DotDims.plain M K N) prec sched lhs rhs (ix2 p q)
      = ∑ k : Fin K, lhs (ix2 p k) * rhs (ix2 k q) :=
  (Ideal.dotGeneral_apply (DotDims.plain M K N) prec sched lhs rhs (ix2 p q)).trans (sum_plain lhs rhs p q)

end LibPlainDot

end
-- ==== Proof.LibRowBlock.lean ====
/-
  A block of rows of a matrix product.

  Cut an [M, K] matrix `X` into blocks of `B` consecutive rows.  Row `p` of the block that starts at row `r - p`
  is row `r` of `X`; so the product of that block with a [K, N] matrix `W`, at (p, q), is the product of the whole
  of `X` with `W` at (r, q): both are the sum over `k : Fin K` of `X (r, k) * W (k, q)`.  Over the extended reals
  this holds for the matrix unit's product into a zero accumulator on the block's side and the host's
  `dot_general` on the whole matrix's side, whatever the operands' float formats.  Generic in every extent.
-/
import proofs.«117966_j29918742184458_1_alg».proof.Proof.LibPlainDot

noncomputable section

namespace LibRowBlock

open Idealize.ShloMosaic Idealize.ShloMosaic.ValueIdx

variable {M B K N : Nat}

/-- The block's product at (p, q) is the whole product at (r, q), when the block's row `p` is `X`'s row `r` and the
    block's right operand is `W` down column `q`. -/
theorem block_product {φ₁ φ₂ ψ₁ ψ₂ : FTy} (prec prec' : Option ContractPrecision) (sched : HostSchedule)
    (X : FVec Ideal ⟨2, ![M, K]⟩ ψ₁) (W : FVec Ideal ⟨2, ![K, N]⟩ ψ₂)
    (xb : FVec Ideal ⟨2, ![B, K]⟩ φ₁) (wb : FVec Ideal ⟨2, ![K, N]⟩ φ₂)
    (p : Fin B) (r : Fin M) (q : Fin N)
    (hx : ∀ k : Fin K, xb (ix2 p k) = X (ix2 r k)) (hw : ∀ k : Fin K, wb (ix2 k q) = W (ix2 k q)) :
    FloatOps.matmul (DotDims.plain B K N) prec xb wb (constant ⟨2, ![B, N]⟩ .f32 0x00000000#32) (ix2 p q)
      = FloatOps.dotGeneral (DotDims.plain M K N) prec' sched X W (ix2 r q) := by
  rw [LibPlainDot.matmul_zero_apply, LibPlainDot.dotGeneral_apply]
  exact Finset.sum_congr rfl fun k _ => by rw [hx k, hw k]

end LibRowBlock

end
-- ==== Proof.Region0.lean ====
/-
  The first region: the two dense products.

  The grid has 20 points; point `t` reads rows 5000·t … 5000·t + 4999 of the feature matrix and the whole of both
  weight matrices, and writes the same rows of two output arrays: the block's product with the first weight matrix
  into one, with the second into the other (operands rounded to bf16 on the way in, which over the extended reals
  changes nothing).  A row of a block's product is the same row of the whole product, so each output array ends
  holding the whole matrix product of the features with its weight matrix: the 20 blocks cover all 100000 rows.
-/
import proofs.«117966_j29918742184458_1_alg».proof.Proof.Gen.KernelIdeal.Frame
import proofs.«117966_j29918742184458_1_alg».proof.Proof.LibRowBlock
import Idealize.ShloMosaic.Lib.Pipeline.Value
import Idealize.ShloMosaic.Lib.ValueIdx

noncomputable section

namespace Cert.KernelIdeal.First

open Cert.KernelIdeal Cert.KernelIdeal.Gen
open Idealize.ShloMosaic Idealize.ShloMosaic.TcCoe Idealize.ShloMosaic.ValueIdx Idealize.SL.Sem
open Idealize.ShloMosaic.Pipeline (Dat)

/-- The whole [100000, 128] x [128, 128] product, as the host computes it. -/
abbrev prod (X : FVec Ideal S100000x128 .f32) (W : FVec Ideal S128x128 .f32) : FVec Ideal S100000x128 .f32 :=
  Host.dotGeneral (DotDims.plain 100000 128 128) none X W

theorem hz : (![0, 0] : Fin 2 → Nat) = fun _ => 0 := funext fun a => by fin_cases a <;> rfl

/-- The index maps over the grid: the feature window and both output windows sit at block row `t`, block column 0;
    the weight windows at block (0, 0). -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0 :=
  (by decide +kernel : ∀ t : Fin grid0.N, _)

/-- The first payload at (p, q): the whole product at (r, q), when the loaded feature block's row `p` is the
    matrix's row `r` and the loaded weight block is the weight matrix. -/
theorem pay2_at (X : FVec Ideal S100000x128 .f32) (W : FVec Ideal S128x128 .f32)
    (xb : Vec Ideal S5000x128 .f32) (wb : Vec Ideal S128x128 .f32) (p : Fin 5000) (q : Fin 128) (r : Fin 100000)
    (hx : ∀ k : Fin 128, xb (ix2 p k) = X (ix2 r k)) (hw : ∀ k : Fin 128, wb (ix2 k q) = W (ix2 k q)) :
    k0_pay2 xb wb (ix2 p q) = prod X W (ix2 r q) := by
  unfold k0_pay2
  exact LibRowBlock.block_product (φ₁ := .bf16) (φ₂ := .bf16) none none .single X W (k0_pay1 xb)
    (truncf .bf16 wb bitsLt_bf16_f32) p r q hx hw

/-- The second payload likewise. -/
theorem pay3_at (X : FVec Ideal S100000x128 .f32) (W : FVec Ideal S128x128 .f32)
    (xb : Vec Ideal S5000x128 .f32) (wb : Vec Ideal S128x128 .f32) (p : Fin 5000) (q : Fin 128) (r : Fin 100000)
    (hx : ∀ k : Fin 128, xb (ix2 p k) = X (ix2 r k)) (hw : ∀ k : Fin 128, wb (ix2 k q) = W (ix2 k q)) :
    k0_pay3 xb wb (ix2 p q) = prod X W (ix2 r q) := by
  unfold k0_pay3
  exact LibRowBlock.block_product (φ₁ := .bf16) (φ₂ := .bf16) none none .single X W (k0_pay1 xb)
    (truncf .bf16 wb bitsLt_bf16_f32) p r q hx hw

variable (V : (c : Dev nD) → (b : Ref sig .tc) → Buf (Elt Ideal) ((c : Thread nD τ).loc b))

/-- Row `p` of the feature block at point `t` is row 5000·t + p of the feature matrix. -/
theorem feat_block (c : Dev nD) (t : Fin cfg0.N) (p : Fin 5000) (k : Fin 128) (r : Fin 100000)
    (hr : r.val = 5000 * t.val + p.val) :
    (iblk0 V c 0 t : Vec Ideal S5000x128 .f32) (ix2 p k) = (V c main_arg0 : S100000x128.Idx → EReal) (ix2 r k) := by
  obtain ⟨e00, e01, -⟩ := idx_facts t
  unfold iblk0
  rw [View.read_apply]
  show V c main_arg0 _ = V c main_arg0 _
  refine congrArg _ ?_
  funext a
  apply Fin.ext
  match a with
  | ⟨0, _⟩ => show win0_0.index t 0 * 5000 + 1 * p.val = r.val; rw [e00, hr]; omega
  | ⟨1, _⟩ => show win0_0.index t 1 * 128 + 1 * k.val = k.val; rw [e01]; omega

/-- The first weight block at any point is the first weight matrix. -/
theorem wn_block (c : Dev nD) (t : Fin cfg0.N) (k q : Fin 128) :
    (iblk0 V c 1 t : Vec Ideal S128x128 .f32) (ix2 k q) = (V c main_arg4 : S128x128.Idx → EReal) (ix2 k q) := by
  obtain ⟨-, -, e10, e11, -⟩ := idx_facts t
  unfold iblk0
  rw [View.read_apply]
  show V c main_arg4 _ = V c main_arg4 _
  refine congrArg _ ?_
  funext a
  apply Fin.ext
  match a with
  | ⟨0, _⟩ => show win0_1.index t 0 * 128 + 1 * k.val = k.val; rw [e10]; omega
  | ⟨1, _⟩ => show win0_1.index t 1 * 128 + 1 * q.val = q.val; rw [e11]; omega

/-- The second weight block at any point is the second weight matrix. -/
theorem ws_block (c : Dev nD) (t : Fin cfg0.N) (k q : Fin 128) :
    (iblk0 V c 2 t : Vec Ideal S128x128 .f32) (ix2 k q) = (V c main_arg5 : S128x128.Idx → EReal) (ix2 k q) := by
  obtain ⟨-, -, -, -, e20, e21, -⟩ := idx_facts t
  unfold iblk0
  rw [View.read_apply]
  show V c main_arg5 _ = V c main_arg5 _
  refine congrArg _ ?_
  funext a
  apply Fin.ext
  match a with
  | ⟨0, _⟩ => show win0_2.index t 0 * 128 + 1 * k.val = k.val; rw [e20]; omega
  | ⟨1, _⟩ => show win0_2.index t 1 * 128 + 1 * q.val = q.val; rw [e21]; omega

/-- What point `t` writes back to the first output array is block `t` of the whole product with the first
    weight matrix. -/
theorem flushed3_eq (c : Dev nD) (t : Fin cfg0.N) :
    (dat0 V c).flushed 3 t
      = ((cfg0.win 3).blk t).view.read (Elt Ideal) (prod (V c main_arg0) (V c main_arg4)) := by
  show (cfg0.win 3).cut (grid0.coords t) ((dat0 V c).after 3 t) = _
  rw [after0_3]
  unfold out0_3
  rw [View.canon_unit_zero hz]
  simp only [View.ld_unit_zero (S := S5000x128) hz, View.ld_unit_zero (S := S128x128) hz]
  obtain ⟨-, -, -, -, -, -, e30, e31, -⟩ := idx_facts t
  have ht : t.val < 20 := lt_of_lt_of_eq t.isLt N_0
  funext j
  obtain ⟨p, q, rfl⟩ : ∃ (p : Fin 5000) (q : Fin 128), j = ix2 p q := ⟨j 0, j 1, eq_ix2 j⟩
  have hemb : ((cfg0.win 3).blk t).view.emb (ix2 p q)
      = ix2 (⟨5000 * t.val + p.val, by have := p.isLt; omega⟩ : Fin 100000) q := by
    funext a
    apply Fin.ext
    match a with
    | ⟨0, _⟩ => show win0_3.index t 0 * 5000 + 1 * p.val = 5000 * t.val + p.val; rw [e30]; omega
    | ⟨1, _⟩ => show win0_3.index t 1 * 128 + 1 * q.val = q.val; rw [e31]; omega
  show k0_pay2 (iblk0 V c 0 t) (iblk0 V c 1 t) (ix2 p q)
    = prod (V c main_arg0) (V c main_arg4) (((cfg0.win 3).blk t).view.emb (ix2 p q))
  rw [hemb]
  exact pay2_at (V c main_arg0) (V c main_arg4) (iblk0 V c 0 t) (iblk0 V c 1 t) p q _
    (fun k => feat_block V c t p k _ rfl) (fun k => wn_block V c t k q)

/-- What point `t` writes back to the second output array is block `t` of the whole product with the second
    weight matrix. -/
theorem flushed4_eq (c : Dev nD) (t : Fin cfg0.N) :
    (dat0 V c).flushed 4 t
      = ((cfg0.win 4).blk t).view.read (Elt Ideal) (prod (V c main_arg0) (V c main_arg5)) := by
  show (cfg0.win 4).cut (grid0.coords t) ((dat0 V c).after 4 t) = _
  rw [after0_4]
  unfold out0_4
  rw [View.canon_unit_zero hz]
  simp only [View.ld_unit_zero (S := S5000x128) hz, View.ld_unit_zero (S := S128x128) hz]
  obtain ⟨-, -, -, -, -, -, -, -, e40, e41⟩ := idx_facts t
  have ht : t.val < 20 := lt_of_lt_of_eq t.isLt N_0
  funext j
  obtain ⟨p, q, rfl⟩ : ∃ (p : Fin 5000) (q : Fin 128), j = ix2 p q := ⟨j 0, j 1, eq_ix2 j⟩
  have hemb : ((cfg0.win 4).blk t).view.emb (ix2 p q)
      = ix2 (⟨5000 * t.val + p.val, by have := p.isLt; omega⟩ : Fin 100000) q := by
    funext a
    apply Fin.ext
    match a with
    | ⟨0, _⟩ => show win0_4.index t 0 * 5000 + 1 * p.val = 5000 * t.val + p.val; rw [e40]; omega
    | ⟨1, _⟩ => show win0_4.index t 1 * 128 + 1 * q.val = q.val; rw [e41]; omega
  show k0_pay3 (iblk0 V c 0 t) (iblk0 V c 2 t) (ix2 p q)
    = prod (V c main_arg0) (V c main_arg5) (((cfg0.win 4).blk t).view.emb (ix2 p q))
  rw [hemb]
  exact pay3_at (V c main_arg0) (V c main_arg5) (iblk0 V c 0 t) (iblk0 V c 2 t) p q _
    (fun k => feat_block V c t p k _ rfl) (fun k => ws_block V c t k q)

/-- An index of the first output array is in point `t`'s block iff each coordinate is in the block's range. -/
theorem mem_blk3 (t : Fin cfg0.N) (i : S100000x128.Idx) :
    i ∈ ((cfg0.win 3).blk t).view.set ↔ ∀ a : Fin 2, win0_3.index t a * S5000x128.size a ≤ (i a).val
      ∧ (i a).val < win0_3.index t a * S5000x128.size a + S5000x128.size a := by
  show i ∈ ((View.whole main_v0_0).slice (win0_3.rect t)).set ↔ _
  rw [View.set_slice_whole, Rect.mem_set_unit]
  exact Iff.rfl

/-- The same for the second output array. -/
theorem mem_blk4 (t : Fin cfg0.N) (i : S100000x128.Idx) :
    i ∈ ((cfg0.win 4).blk t).view.set ↔ ∀ a : Fin 2, win0_4.index t a * S5000x128.size a ≤ (i a).val
      ∧ (i a).val < win0_4.index t a * S5000x128.size a + S5000x128.size a := by
  show i ∈ ((View.whole main_v0_1).slice (win0_4.rect t)).set ↔ _
  rw [View.set_slice_whole, Rect.mem_set_unit]
  exact Iff.rfl

/-- Row `r` lies in the block of point `r / 5000`: the 20 blocks cover the first output array. -/
theorem cover3 (i : S100000x128.Idx) :
    ∃ t : Fin cfg0.N, (cfg0.win 3).flush t = true ∧ i ∈ ((cfg0.win 3).blk t).view.set := by
  have hi0 : (i 0).val < 100000 := (i 0).isLt
  have hi1 : (i 1).val < 128 := (i 1).isLt
  let t : Fin cfg0.N := ⟨(i 0).val / 5000, lt_of_lt_of_eq (by omega : (i 0).val / 5000 < 20) N_0.symm⟩
  obtain ⟨-, -, -, -, -, -, e30, e31, -⟩ := idx_facts t
  have tv : t.val = (i 0).val / 5000 := rfl
  refine ⟨t, flush0_3 t, ?_⟩
  rw [mem_blk3]
  intro a
  match a with
  | ⟨0, _⟩ => show win0_3.index t 0 * 5000 ≤ (i 0).val ∧ (i 0).val < win0_3.index t 0 * 5000 + 5000; rw [e30, tv]; omega
  | ⟨1, _⟩ => show win0_3.index t 1 * 128 ≤ (i 1).val ∧ (i 1).val < win0_3.index t 1 * 128 + 128; rw [e31]; omega

/-- And the second. -/
theorem cover4 (i : S100000x128.Idx) :
    ∃ t : Fin cfg0.N, (cfg0.win 4).flush t = true ∧ i ∈ ((cfg0.win 4).blk t).view.set := by
  have hi0 : (i 0).val < 100000 := (i 0).isLt
  have hi1 : (i 1).val < 128 := (i 1).isLt
  let t : Fin cfg0.N := ⟨(i 0).val / 5000, lt_of_lt_of_eq (by omega : (i 0).val / 5000 < 20) N_0.symm⟩
  obtain ⟨-, -, -, -, -, -, -, -, e40, e41⟩ := idx_facts t
  have tv : t.val = (i 0).val / 5000 := rfl
  refine ⟨t, flush0_4 t, ?_⟩
  rw [mem_blk4]
  intro a
  match a with
  | ⟨0, _⟩ => show win0_4.index t 0 * 5000 ≤ (i 0).val ∧ (i 0).val < win0_4.index t 0 * 5000 + 5000; rw [e40, tv]; omega
  | ⟨1, _⟩ => show win0_4.index t 1 * 128 ≤ (i 1).val ∧ (i 1).val < win0_4.index t 1 * 128 + 128; rw [e41]; omega

/-- After the region the first output array holds the features' product with the first weight matrix. -/
theorem final3 (c : Dev nD) : (dat0 V c).arrAt 3 cfg0.N = prod (V c main_arg0) (V c main_arg4) :=
  (dat0 V c).arrAt_eq_of_cover 3 (prod (V c main_arg0) (V c main_arg4)) (fun t _ => flushed3_eq V c t) cover3

/-- And the second output array their product with the second weight matrix. -/
theorem final4 (c : Dev nD) : (dat0 V c).arrAt 4 cfg0.N = prod (V c main_arg0) (V c main_arg5) :=
  (dat0 V c).arrAt_eq_of_cover 4 (prod (V c main_arg0) (V c main_arg5)) (fun t _ => flushed4_eq V c t) cover4

end Cert.KernelIdeal.First

end
-- ==== Proof.Region1.lean ====
/-
  The second region: the final sum.

  The grid has 20 points; point `t` reads rows 5000·t … 5000·t + 4999 of the aggregated neighbour term and of the
  self term and writes their entrywise sum to the same rows of the result.  Entry (r, q) of the result is therefore
  the sum of the two arrays' entries (r, q), and the 20 blocks cover all 100000 rows: the result array ends holding
  the entrywise sum of the two whole arrays.
-/
import proofs.«117966_j29918742184458_1_alg».proof.Proof.Gen.KernelIdeal.Frame
import Idealize.ShloMosaic.Lib.Pipeline.Value
import Idealize.ShloMosaic.Lib.ValueIdx

noncomputable section

namespace Cert.KernelIdeal.Second

open Cert.KernelIdeal Cert.KernelIdeal.Gen
open Idealize.ShloMosaic Idealize.ShloMosaic.TcCoe Idealize.ShloMosaic.ValueIdx Idealize.SL.Sem
open Idealize.ShloMosaic.Pipeline (Dat)

variable {F : FTy → Type} [FloatOps F]

theorem hz : (![0, 0] : Fin 2 → Nat) = fun _ => 0 := funext fun a => by fin_cases a <;> rfl

/-- The index maps over the grid: all three windows sit at block row `t`, block column 0. -/
theorem idx_facts : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0 :=
  (by decide +kernel : ∀ t : Fin grid1.N, _)

/-- The payload is the entrywise sum of the two loaded blocks. -/
theorem pay1_eq (x0 x1 : Vec F S5000x128 .f32) : k1_pay1 x0 x1 = addf x0 x1 := by
  unfold k1_pay1
  simp only [shapeCast_self]

variable (V : (c : Dev nD) → (b : Ref sig .tc) → Buf (Elt F) ((c : Thread nD τ).loc b))

/-- What point `t` writes back is block `t` of the entrywise sum of the two whole arrays. -/
theorem flushed2_eq (c : Dev nD) (t : Fin cfg1.N) :
    (dat1 V c).flushed 2 t
      = ((cfg1.win 2).blk t).view.read (Elt F) (addf (V c main_v13 : FVec F S100000x128 .f32) (V c main_v0_1)) := by
  show (cfg1.win 2).cut (grid1.coords t) ((dat1 V c).after 2 t) = _
  rw [after1_2]
  unfold out1_2
  rw [View.canon_unit_zero hz]
  simp only [View.ld_unit_zero (S := S5000x128) hz]
  rw [pay1_eq]
  obtain ⟨e00, e01, e10, e11, e20, e21⟩ := idx_facts t
  funext j
  show FloatOps.addf (V c main_v13 (((cfg1.win 0).blk t).view.emb j)) (V c main_v0_1 (((cfg1.win 1).blk t).view.emb j))
    = FloatOps.addf (V c main_v13 (((cfg1.win 2).blk t).view.emb j)) (V c main_v0_1 (((cfg1.win 2).blk t).view.emb j))
  have h0 : ((cfg1.win 0).blk t).view.emb j = ((cfg1.win 2).blk t).view.emb j := by
    funext a; apply Fin.ext
    match a with
    | ⟨0, _⟩ => show win1_0.index t (0 : Fin 2) * 5000 + 1 * (j 0).val = win1_2.index t (0 : Fin 2) * 5000 + 1 * (j 0).val; rw [e00, e20]
    | ⟨1, _⟩ => show win1_0.index t (1 : Fin 2) * 128 + 1 * (j 1).val = win1_2.index t (1 : Fin 2) * 128 + 1 * (j 1).val; rw [e01, e21]
  have h1 : ((cfg1.win 1).blk t).view.emb j = ((cfg1.win 2).blk t).view.emb j := by
    funext a; apply Fin.ext
    match a with
    | ⟨0, _⟩ => show win1_1.index t (0 : Fin 2) * 5000 + 1 * (j 0).val = win1_2.index t (0 : Fin 2) * 5000 + 1 * (j 0).val; rw [e10, e20]
    | ⟨1, _⟩ => show win1_1.index t (1 : Fin 2) * 128 + 1 * (j 1).val = win1_2.index t (1 : Fin 2) * 128 + 1 * (j 1).val; rw [e11, e21]
  rw [h0, h1]

/-- An index of the result array is in point `t`'s block iff each coordinate is in the block's range. -/
theorem mem_blk2 (t : Fin cfg1.N) (i : S100000x128.Idx) :
    i ∈ ((cfg1.win 2).blk t).view.set ↔ ∀ a : Fin 2, win1_2.index t a * S5000x128.size a ≤ (i a).val
      ∧ (i a).val < win1_2.index t a * S5000x128.size a + S5000x128.size a := by
  show i ∈ ((View.whole main_v14).slice (win1_2.rect t)).set ↔ _
  rw [View.set_slice_whole, Rect.mem_set_unit]
  exact Iff.rfl

/-- Row `r` lies in the block of point `r / 5000`: the 20 blocks cover the result array. -/
theorem cover2 (i : S100000x128.Idx) :
    ∃ t : Fin cfg1.N, (cfg1.win 2).flush t = true ∧ i ∈ ((cfg1.win 2).blk t).view.set := by
  have hi0 : (i 0).val < 100000 := (i 0).isLt
  have hi1 : (i 1).val < 128 := (i 1).isLt
  let t : Fin cfg1.N := ⟨(i 0).val / 5000, lt_of_lt_of_eq (by omega : (i 0).val / 5000 < 20) N_1.symm⟩
  obtain ⟨-, -, -, -, e20, e21⟩ := idx_facts t
  have tv : t.val = (i 0).val / 5000 := rfl
  refine ⟨t, flush1_2 t, ?_⟩
  rw [mem_blk2]
  intro a
  match a with
  | ⟨0, _⟩ => show win1_2.index t 0 * 5000 ≤ (i 0).val ∧ (i 0).val < win1_2.index t 0 * 5000 + 5000; rw [e20, tv]; omega
  | ⟨1, _⟩ => show win1_2.index t 1 * 128 ≤ (i 1).val ∧ (i 1).val < win1_2.index t 1 * 128 + 128; rw [e21]; omega

/-- After the region the result array holds the entrywise sum of the neighbour term and the self term as the region
    found them. -/
theorem final2 (c : Dev nD) :
    (dat1 V c).arrAt 2 cfg1.N = addf (V c main_v13 : FVec F S100000x128 .f32) (V c main_v0_1) :=
  (dat1 V c).arrAt_eq_of_cover 2 (addf (V c main_v13 : FVec F S100000x128 .f32) (V c main_v0_1))
    (fun t _ => flushed2_eq V c t) cover2

end Cert.KernelIdeal.Second

end
-- ==== Proof.KernelValue.lean ====
/-
  The program's result as one term of its arguments.

  Write X for the features, W₁ and W₂ for the two weight matrices, and (row, col, val) for the edge list.  The first
  region leaves X·W₁ and X·W₂; the host stretch gathers the rows of X·W₁ named by the edges' columns (a negative
  column number counted from the end), scales each by its edge's value and adds it into the row named by the edge's
  row number, starting from zero; the second region adds X·W₂ entrywise.  So the result is

      scatter-add(0, row, gather(X·W₁, col) · val) + X·W₂,

  with both products the host's own `dot_general`.
-/
import proofs.«117966_j29918742184458_1_alg».proof.Proof.KernelRun
import proofs.«117966_j29918742184458_1_alg».proof.Proof.Region0
import proofs.«117966_j29918742184458_1_alg».proof.Proof.Region1
import Idealize.ShloMosaic.Lib.StableHlo.Run

noncomputable section

namespace Cert.KernelIdeal.Whole

open Cert.KernelIdeal Cert.KernelIdeal.Gen
open Idealize.ShloMosaic Idealize.ShloMosaic.TcCoe Idealize.SL.Sem Idealize.ShloMosaic.StableHlo

/-- The neighbour term from a [100000, 128] array `xw` and the edge list: the rows of `xw` gathered at the edges'
    column numbers, scaled by the edges' values, added into zeros at the edges' row numbers. -/
def neigh (xw : (⟨S100000x128, .f32⟩ : BufTy).Contents (Elt Ideal)) (row col : (⟨S1600000, .i32⟩ : BufTy).Contents (Elt Ideal))
    (vals : (⟨S1600000, .f32⟩ : BufTy).Contents (Elt Ideal)) : (⟨S100000x128, .f32⟩ : BufTy).Contents (Elt Ideal) :=
  Host.scatterAdd scatter_S100000x128_S1600000x1_S1600000x128_1_0_0_1
    (broadcastInDim S100000x128 ![] bcast_S_S100000x128 (constant (F := Ideal) S_ .f32 0x00000000#32))
    (broadcastInDim S1600000x1 ![0] bcast_S1600000_S1600000x1_0 row)
    (mulf
      (Host.gather gather_S100000x128_S1600000x1_S1600000x128_1_0_n_n_0_1_1128 xw
        (broadcastInDim S1600000x1 ![0] bcast_S1600000_S1600000x1_0
          (select (cmpi .slt col (broadcastInDim S1600000 ![] bcast_S_S1600000 (constantI S_ 32 0#32)))
            (addi col (broadcastInDim S1600000 ![] bcast_S_S1600000 (constantI S_ 32 100000#32))) col)))
      (broadcastInDim S1600000x128 ![0, 1] bcast_S1600000x1_S1600000x128_0_1
        (broadcastInDim S1600000x1 ![0] bcast_S1600000_S1600000x1_0 vals)))

/-- The whole result from the arguments. -/
def result (x : (⟨S100000x128, .f32⟩ : BufTy).Contents (Elt Ideal)) (row col : (⟨S1600000, .i32⟩ : BufTy).Contents (Elt Ideal))
    (vals : (⟨S1600000, .f32⟩ : BufTy).Contents (Elt Ideal)) (w₁ w₂ : (⟨S128x128, .f32⟩ : BufTy).Contents (Elt Ideal)) :
    (⟨S100000x128, .f32⟩ : BufTy).Contents (Elt Ideal) :=
  addf (neigh (First.prod x w₁) row col vals) (First.prod x w₂)

variable (m : (ℓ : Loc nD τ sig) → Buf (Elt Ideal) ℓ) (ρ : Dev nD → PrngReg)

/-- After the host stretch the neighbour term's buffer holds `neigh` of the first region's first output and the edge
    list as the stretch found them. -/
theorem mid_neigh (c : Dev nD) :
    V2 m ρ c main_v13
      = neigh (W1 m ρ c (Proc.devRef .tc main_v0_0)) (W1 m ρ c (Proc.devRef .tc main_arg1))
          (W1 m ρ c (Proc.devRef .tc main_arg2)) (W1 m ρ c (Proc.devRef .tc main_arg3)) := by
  show StableHlo.after hostOps1 (W1 m ρ c) (Proc.devRef .tc main_v13) = _
  after_results
  rfl

/-- The host stretch leaves the first region's second output alone. -/
theorem mid_self (c : Dev nD) :
    V2 m ρ c main_v0_1 = W1 m ρ c (Proc.devRef .tc main_v0_1) := by
  show StableHlo.after hostOps1 (W1 m ρ c) (Proc.devRef .tc main_v0_1) = _
  after_results

/-- The result buffer's last contents are `result` of the launch contents of the arguments. -/
theorem value (c : Dev nD) :
    W3 m ρ c (Proc.devRef .tc main_v14)
      = result (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5)) := by
  have h1 : W1 m ρ c (Proc.devRef .tc main_arg1) = m ((c.tc : Thread nD τ).loc main_arg1) :=
    W1_of_ne m ρ c main_arg1 (by decide)
  have h2 : W1 m ρ c (Proc.devRef .tc main_arg2) = m ((c.tc : Thread nD τ).loc main_arg2) :=
    W1_of_ne m ρ c main_arg2 (by decide)
  have h3 : W1 m ρ c (Proc.devRef .tc main_arg3) = m ((c.tc : Thread nD τ).loc main_arg3) :=
    W1_of_ne m ρ c main_arg3 (by decide)
  have hxw : W1 m ρ c (Proc.devRef .tc main_v0_0)
      = First.prod (m ((c.tc : Thread nD τ).loc main_arg0)) (m ((c.tc : Thread nD τ).loc main_arg4)) :=
    (W1_arr m ρ c 3).trans (First.final3 (V0 m ρ) c)
  have hself : W1 m ρ c (Proc.devRef .tc main_v0_1)
      = First.prod (m ((c.tc : Thread nD τ).loc main_arg0)) (m ((c.tc : Thread nD τ).loc main_arg5)) :=
    (W1_arr m ρ c 4).trans (First.final4 (V0 m ρ) c)
  refine (W3_arr m ρ c 2).trans ((Second.final2 (V2 m ρ) c).trans ?_)
  rw [mid_neigh, mid_self, h1, h2, h3, hxw, hself]
  rfl

/-- Every weakly fair execution of the program terminates without a fault, with the result buffer at `result` of
    the arguments and the arguments as launched. -/
theorem run_value : θ_run defs (onTc (τ := τ) (main (F := Ideal))) ⟨m, fun _ => 0, ρ⟩ (fun r => ∀ c : Dev nD,
      r.2.mem ((c.tc : Thread nD τ).loc main_v14)
        = result (m ((c.tc : Thread nD τ).loc main_arg0)) (m ((c.tc : Thread nD τ).loc main_arg1))
            (m ((c.tc : Thread nD τ).loc main_arg2)) (m ((c.tc : Thread nD τ).loc main_arg3))
            (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => ⟨(h c).1.trans (value m ρ c), (h c).2⟩) (run (F := Ideal) m ρ)

end Cert.KernelIdeal.Whole

end
-- ==== Proof.lean ====
/-
  A graph convolution  out = A · (X · W₁) + X · W₂  with the sparse matrix A given as an edge list (row, col, val):
  out[r] = Σ over the edges e with row[e] = r of val[e] · (X · W₁)[col[e]]  +  (X · W₂)[r].

  The kernel program computes both dense products in one grid region (20 blocks of 5000 rows, the operands rounded to
  bf16 on the way into the matrix unit), gathers, scales and scatter-adds on the host, and adds the self term in a
  second grid region (again 20 blocks of 5000 rows).  The reference does every step on the host.  Over the extended
  reals a change of float format is the identity and a block of rows of a matrix product is the same rows of the whole
  product, so the two dense stages agree entry by entry with the host's `dot_general`; the gather, the scaling and the
  scatter-add are the same operations applied to equal arrays; and a blockwise entrywise sum is the entrywise sum.  No
  law that needs finite values is used, so the precondition is never opened.  The idealized kernel program is the
  kernel program's own text read over the extended reals, so the idealization claim is trivial.
-/
import proofs.«117966_j29918742184458_1_alg».proof.Defs
import proofs.«117966_j29918742184458_1_alg».proof.Proof.Gen.Kernel
import proofs.«117966_j29918742184458_1_alg».proof.Proof.Gen.Kernel.Skeleton
import proofs.«117966_j29918742184458_1_alg».proof.Proof.Gen.Kernel.Launch
import proofs.«117966_j29918742184458_1_alg».proof.Proof.Gen.Kernel.Points
import proofs.«117966_j29918742184458_1_alg».proof.Proof.Gen.Kernel.Frame
import proofs.«117966_j29918742184458_1_alg».proof.Proof.Gen.KernelIdeal
import proofs.«117966_j29918742184458_1_alg».proof.Proof.Gen.KernelIdeal.Skeleton
import proofs.«117966_j29918742184458_1_alg».proof.Proof.Gen.KernelIdeal.Launch
import proofs.«117966_j29918742184458_1_alg».proof.Proof.Gen.KernelIdeal.Points
import proofs.«117966_j29918742184458_1_alg».proof.Proof.Gen.KernelIdeal.Frame
import proofs.«117966_j29918742184458_1_alg».proof.Proof.Gen.ReferenceIdeal
import proofs.«117966_j29918742184458_1_alg».proof.Proof.Gen.ReferenceIdeal.Run
import proofs.«117966_j29918742184458_1_alg».proof.Proof.Gen.Pre_finite_inputs
import proofs.«117966_j29918742184458_1_alg».proof.Proof.KernelValue
import Idealize.ShloMosaic.Adequacy
import Idealize.ShloMosaic.Init

noncomputable section

namespace Cert.Proof

open Idealize.ShloMosaic Idealize.SL.Sem

/-- The word-level kernel program runs, and its arguments end as launched. -/
theorem frame_kernel : Cert.frame_Kernel := fun m ρ _ => Cert.Kernel.Gen.frame m ρ

/-- So does the idealized kernel program. -/
theorem frame_kernelIdeal : Cert.frame_KernelIdeal := fun m ρ _ => Cert.KernelIdeal.Gen.frame m ρ

/-- The reference is host operations only: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Both programs end with the result at  scatter-add(0, row, gather(X·W₁, col) · val) + X·W₂  of arguments that
    agree: the kernel program by its value (the two regions' arrays read back), the reference by its run, whose term
    is that one. -/
theorem algebraic : Cert.algebraic_KernelIdeal_ReferenceIdeal := by
  intro m ρ m' ρ' _ hagree
  refine ⟨_, Cert.KernelIdeal.Whole.run_value m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5⟩ := hagree c
  rw [a0, a1, a2, a3, a4, a5]
  rfl

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
